-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x16 .f32) (main_arg3 : FVec F S16 .f32) (main_arg4 : FVec F S16x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S1000x1433 : Shape := ⟨2, ![1000, 1433]⟩
abbrev S1000x16 : Shape := ⟨2, ![1000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x7 : Shape := ⟨2, ![100000, 7]⟩
abbrev S5000x16 : Shape := ⟨2, ![5000, 16]⟩
abbrev S5000x7 : Shape := ⟨2, ![5000, 7]⟩
abbrev S3200000x7 : Shape := ⟨2, ![3200000, 7]⟩
abbrev S1x7 : Shape := ⟨2, ![1, 7]⟩

abbrev nBuf : Space → Nat
  | .hbm => 49
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x7, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x7, .f32⟩
  | .hbm, ⟨41, _⟩ => ⟨S_, .f32⟩
  | .hbm, ⟨42, _⟩ => ⟨S100000x7, .f32⟩
  | .hbm, ⟨43, _⟩ => ⟨S3200000x1, .i32⟩
  | .hbm, ⟨44, _⟩ => ⟨S100000x7, .f32⟩
  | .hbm, ⟨45, _⟩ => ⟨S100000x7, .f32⟩
  | .hbm, ⟨46, _⟩ => ⟨S1x7, .f32⟩
  | .hbm, ⟨47, _⟩ => ⟨S100000x7, .f32⟩
  | .hbm, ⟨48, _⟩ => ⟨S100000x7, .f32⟩
  | .local _ .vmem, ⟨0, _⟩ => ⟨S1000x1433, .f32⟩
  | .local _ .vmem, ⟨1, _⟩ => ⟨S1000x1433, .f32⟩
  | .local _ .vmem, ⟨2, _⟩ => ⟨S1433x16, .f32⟩
  | .local _ .vmem, ⟨3, _⟩ => ⟨S1000x16, .f32⟩
  | .local _ .vmem, ⟨4, _⟩ => ⟨S1000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S1000x16_S1000x16_0_0 : ∀ a, (![0, 0] : Fin 2 → Nat) a + S1000x16.size a ≤ S1000x16.size a
  h_S1000x16 : 0 < S1000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S1000x1433_S1433x16_S1000x16_1_0_0_1_n_n_wf : DotDims.WF S1000x1433 S1433x16 S1000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x7_S5000x7_1_0_0_1_n_n_wf : DotDims.WF S5000x16 S16x7 S5000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S100000x1433.size a
  hwx0_0 : ∀ i : grid0.Coords, EltTy.bits .f32 = 32 ∨ (Rect.block (s := S100000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S100000x16.size a
  hwx0_2 : ∀ i : grid0.Coords, EltTy.bits .f32 = 32 ∨ (Rect.block (s := S100000x16) S1000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def dot_S1000x1433_S1433x16_S1000x16_1_0_0_1_n_n : DotDims S1000x1433 S1433x16 S1000x16 where
  lhsContracting := [1]
  rhsContracting := [0]
  lhsNonContracting := [0]
  rhsNonContracting := [1]
  lhsBatch := []
  rhsBatch := []
  wf := dot_S1000x1433_S1433x16_S1000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 49
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x7, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x7, .f32⟩
  | .hbm, ⟨41, _⟩ => ⟨S_, .f32⟩
  | .hbm, ⟨42, _⟩ => ⟨S100000x7, .f32⟩
  | .hbm, ⟨43, _⟩ => ⟨S3200000x1, .i32⟩
  | .hbm, ⟨44, _⟩ => ⟨S100000x7, .f32⟩
  | .hbm, ⟨45, _⟩ => ⟨S100000x7, .f32⟩
  | .hbm, ⟨46, _⟩ => ⟨S1x7, .f32⟩
  | .hbm, ⟨47, _⟩ => ⟨S100000x7, .f32⟩
  | .hbm, ⟨48, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KernelRun.lean ====
/-
  The idealized kernel's whole run with its result named.

  The program is six segments: four host lines (the two rows of `edge_index`), the first Pallas region, the host
  aggregation and ReLU, the second Pallas region, the host aggregation. Every weakly fair execution ends with each
  unscoped buffer holding what the fold of those segments over the launch memory leaves in it; read at the result
  buffer this names the result, and read at the six arguments it gives back the launch contents.
-/
import proofs.«100363_j29935922053209_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    segment boundary's contents and the six arguments as launched. -/
theorem run : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.BlockProduct.lean ====
/-
  The two kernel bodies read at an index.

  Each body loads a block of rows `x` and the whole weight matrix `w`, narrows both to bf16 — the identity on
  extended reals — and multiplies them into a zero accumulator. So the stored block, at row `p` and column `q`,
  is the plain sum over the contracted axis of `x (p, k) * w (k, q)`.
-/
import proofs.«100363_j29935922053209_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## First layer: a [1000, 1433] block of rows times the [1433, 16] weights -/

/-- Row `p` of the block, at contracted position `k`. -/
abbrev rowAt1 (j : S1000x16.Idx) (k : Fin 1433) : S1000x1433.Idx := fun a => match a with
  | ⟨0, _⟩ => ⟨(j 0).val, (j 0).isLt⟩
  | ⟨1, _⟩ => ⟨k.val, k.isLt⟩
/-- Column `q` of the weights, at contracted position `k`. -/
abbrev colAt1 (j : S1000x16.Idx) (k : Fin 1433) : S1433x16.Idx := fun a => match a with
  | ⟨0, _⟩ => ⟨k.val, k.isLt⟩
  | ⟨1, _⟩ => ⟨(j 1).val, (j 1).isLt⟩

theorem lhs1_0 (j : S1000x16.Idx) (q : dot_S1000x1433_S1433x16_S1000x16_1_0_0_1_n_n.contr.Idx) :
    (dot_S1000x1433_S1433x16_S1000x16_1_0_0_1_n_n.lhsIdx j q 0).val = (j 0).val := by
  unfold DotDims.lhsIdx
  rw [dif_neg (show ¬(0 : Fin S1000x1433.rank) ∈ dot_S1000x1433_S1433x16_S1000x16_1_0_0_1_n_n.lhsBatch by decide), dif_pos (show (0 : Fin S1000x1433.rank) ∈ dot_S1000x1433_S1433x16_S1000x16_1_0_0_1_n_n.lhsNonContracting by decide)]
  rfl
theorem lhs1_1 (j : S1000x16.Idx) (q : dot_S1000x1433_S1433x16_S1000x16_1_0_0_1_n_n.contr.Idx) :
    (dot_S1000x1433_S1433x16_S1000x16_1_0_0_1_n_n.lhsIdx j q 1).val = (q ⟨0, by decide⟩).val :=
  dot_S1000x1433_S1433x16_S1000x16_1_0_0_1_n_n.lhsIdx_val_of_single rfl j q
theorem rhs1_0 (j : S1000x16.Idx) (q : dot_S1000x1433_S1433x16_S1000x16_1_0_0_1_n_n.contr.Idx) :
    (dot_S1000x1433_S1433x16_S1000x16_1_0_0_1_n_n.rhsIdx j q 0).val = (q ⟨0, by decide⟩).val :=
  dot_S1000x1433_S1433x16_S1000x16_1_0_0_1_n_n.rhsIdx_val_of_single rfl j q
theorem rhs1_1 (j : S1000x16.Idx) (q : dot_S1000x1433_S1433x16_S1000x16_1_0_0_1_n_n.contr.Idx) :
    (dot_S1000x1433_S1433x16_S1000x16_1_0_0_1_n_n.rhsIdx j q 1).val = (j 1).val := by
  unfold DotDims.rhsIdx
  rw [dif_neg (show ¬(1 : Fin S1433x16.rank) ∈ dot_S1000x1433_S1433x16_S1000x16_1_0_0_1_n_n.rhsBatch by decide), dif_pos (show (1 : Fin S1433x16.rank) ∈ dot_S1000x1433_S1433x16_S1000x16_1_0_0_1_n_n.rhsNonContracting by decide)]
  rfl

/-- The first body's stored block at an index: the sum over the 1433 contracted positions. -/
theorem pay1_apply (x : Vec Ideal S1000x1433 .f32) (w : Vec Ideal S1433x16 .f32) (j : S1000x16.Idx) :
    k0_pay1 (F := Ideal) x w j = ∑ k : Fin 1433, x (rowAt1 j k) * w (colAt1 j k) := by
  unfold k0_pay1
  refine (Ideal.matmul_constant_zero_apply dot_S1000x1433_S1433x16_S1000x16_1_0_0_1_n_n none _ _ j).trans ?_
  rw [← Equiv.sum_comp (contrEquiv1 dot_S1000x1433_S1433x16_S1000x16_1_0_0_1_n_n 1433 rfl rfl).symm]
  refine Finset.sum_congr rfl fun k _ => ?_
  have hk := contrEquiv1_symm_val dot_S1000x1433_S1433x16_S1000x16_1_0_0_1_n_n 1433 rfl rfl k
  have el : dot_S1000x1433_S1433x16_S1000x16_1_0_0_1_n_n.lhsIdx j ((contrEquiv1 dot_S1000x1433_S1433x16_S1000x16_1_0_0_1_n_n 1433 rfl rfl).symm k) = rowAt1 j k := funext fun a => Fin.ext (by
    match a with
    | ⟨0, _⟩ => exact lhs1_0 _ _
    | ⟨1, _⟩ => exact (lhs1_1 _ _).trans hk)
  have er : dot_S1000x1433_S1433x16_S1000x16_1_0_0_1_n_n.rhsIdx j ((contrEquiv1 dot_S1000x1433_S1433x16_S1000x16_1_0_0_1_n_n 1433 rfl rfl).symm k) = colAt1 j k := funext fun a => Fin.ext (by
    match a with
    | ⟨0, _⟩ => exact (rhs1_0 _ _).trans hk
    | ⟨1, _⟩ => exact rhs1_1 _ _)
  rw [truncf_apply, truncf_apply, el, er]

/-! ## Second layer: a [5000, 16] block of rows times the [16, 7] weights -/

abbrev rowAt2 (j : S5000x7.Idx) (k : Fin 16) : S5000x16.Idx := fun a => match a with
  | ⟨0, _⟩ => ⟨(j 0).val, (j 0).isLt⟩
  | ⟨1, _⟩ => ⟨k.val, k.isLt⟩
abbrev colAt2 (j : S5000x7.Idx) (k : Fin 16) : S16x7.Idx := fun a => match a with
  | ⟨0, _⟩ => ⟨k.val, k.isLt⟩
  | ⟨1, _⟩ => ⟨(j 1).val, (j 1).isLt⟩

theorem lhs2_0 (j : S5000x7.Idx) (q : dot_S5000x16_S16x7_S5000x7_1_0_0_1_n_n.contr.Idx) :
    (dot_S5000x16_S16x7_S5000x7_1_0_0_1_n_n.lhsIdx j q 0).val = (j 0).val := by
  unfold DotDims.lhsIdx
  rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
  rfl
theorem lhs2_1 (j : S5000x7.Idx) (q : dot_S5000x16_S16x7_S5000x7_1_0_0_1_n_n.contr.Idx) :
    (dot_S5000x16_S16x7_S5000x7_1_0_0_1_n_n.lhsIdx j q 1).val = (q ⟨0, by decide⟩).val :=
  dot_S5000x16_S16x7_S5000x7_1_0_0_1_n_n.lhsIdx_val_of_single rfl j q
theorem rhs2_0 (j : S5000x7.Idx) (q : dot_S5000x16_S16x7_S5000x7_1_0_0_1_n_n.contr.Idx) :
    (dot_S5000x16_S16x7_S5000x7_1_0_0_1_n_n.rhsIdx j q 0).val = (q ⟨0, by decide⟩).val :=
  dot_S5000x16_S16x7_S5000x7_1_0_0_1_n_n.rhsIdx_val_of_single rfl j q
theorem rhs2_1 (j : S5000x7.Idx) (q : dot_S5000x16_S16x7_S5000x7_1_0_0_1_n_n.contr.Idx) :
    (dot_S5000x16_S16x7_S5000x7_1_0_0_1_n_n.rhsIdx j q 1).val = (j 1).val := by
  unfold DotDims.rhsIdx
  rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
  rfl

/-- The second body's stored block at an index: the sum over the 16 contracted positions (the reshape of the
    loaded block to its own shape changes nothing). -/
theorem pay2_apply (x : Vec Ideal S5000x16 .f32) (w : Vec Ideal S16x7 .f32) (j : S5000x7.Idx) :
    k1_pay1 (F := Ideal) x w j = ∑ k : Fin 16, x (rowAt2 j k) * w (colAt2 j k) := by
  unfold k1_pay1
  rw [shapeCast_self]
  refine (Ideal.matmul_constant_zero_apply dot_S5000x16_S16x7_S5000x7_1_0_0_1_n_n none _ _ j).trans ?_
  rw [← Equiv.sum_comp (contrEquiv1 dot_S5000x16_S16x7_S5000x7_1_0_0_1_n_n 16 rfl rfl).symm]
  refine Finset.sum_congr rfl fun k _ => ?_
  have hk := contrEquiv1_symm_val dot_S5000x16_S16x7_S5000x7_1_0_0_1_n_n 16 rfl rfl k
  have el : dot_S5000x16_S16x7_S5000x7_1_0_0_1_n_n.lhsIdx j ((contrEquiv1 dot_S5000x16_S16x7_S5000x7_1_0_0_1_n_n 16 rfl rfl).symm k) = rowAt2 j k := funext fun a => Fin.ext (by
    match a with
    | ⟨0, _⟩ => exact lhs2_0 _ _
    | ⟨1, _⟩ => exact (lhs2_1 _ _).trans hk)
  have er : dot_S5000x16_S16x7_S5000x7_1_0_0_1_n_n.rhsIdx j ((contrEquiv1 dot_S5000x16_S16x7_S5000x7_1_0_0_1_n_n 16 rfl rfl).symm k) = colAt2 j k := funext fun a => Fin.ext (by
    match a with
    | ⟨0, _⟩ => exact (rhs2_0 _ _).trans hk
    | ⟨1, _⟩ => exact rhs2_1 _ _)
  rw [truncf_apply, truncf_apply, el, er]

end Cert.KernelIdeal.BlockProduct

end
-- ==== Proof.Layers.lean ====
/-
  The network as pure functions of its argument arrays.

  Two graph-convolution layers over 100000 nodes and 3200000 edges:
    t1 = x @ W1,   h = relu (scatter_add over edges of t1[src] into dst  +  t1  +  b1),
    t2 = h @ W2, out =       scatter_add over edges of t2[src] into dst  +  t2  +  b2.
  The dense products are written as plain sums over the contracted axis; everything else — the two rows of the
  edge list, the gather, the scatter-add, the self-loop, the bias, the ReLU — is kept as the host operations
  themselves, applied to whatever dense transform they are given.
-/
import proofs.«100363_j29935922053209_2_alg».proof.KernelIdeal
import Idealize.ShloMosaic.PureOps.Ideal

noncomputable section

namespace Cert.KernelIdeal.Layers

open Cert.KernelIdeal Cert.KernelIdeal.Facts₀ Idealize.ShloMosaic

/-! ## The dense products -/

/-- Row `i 0` of the whole left operand, at contracted position `k`. -/
abbrev row1 (i : S100000x16.Idx) (k : Fin 1433) : S100000x1433.Idx := fun a => match a with
  | ⟨0, _⟩ => ⟨(i 0).val, (i 0).isLt⟩
  | ⟨1, _⟩ => ⟨k.val, k.isLt⟩
/-- Column `i 1` of the weights, at contracted position `k`. -/
abbrev col1 (i : S100000x16.Idx) (k : Fin 1433) : S1433x16.Idx := fun a => match a with
  | ⟨0, _⟩ => ⟨k.val, k.isLt⟩
  | ⟨1, _⟩ => ⟨(i 1).val, (i 1).isLt⟩

/-- The whole product: entry `(r, q)` is the sum over `k` of `x (r, k) * w (k, q)`. -/
def prod1 (x : S100000x1433.Idx → Elt Ideal .f32) (w : S1433x16.Idx → Elt Ideal .f32) : S100000x16.Idx → Elt Ideal .f32 :=
  fun i => ∑ k : Fin 1433, x (row1 i k) * w (col1 i k)

/-- Row `i 0` of the whole left operand, at contracted position `k`. -/
abbrev row2 (i : S100000x7.Idx) (k : Fin 16) : S100000x16.Idx := fun a => match a with
  | ⟨0, _⟩ => ⟨(i 0).val, (i 0).isLt⟩
  | ⟨1, _⟩ => ⟨k.val, k.isLt⟩
/-- Column `i 1` of the weights, at contracted position `k`. -/
abbrev col2 (i : S100000x7.Idx) (k : Fin 16) : S16x7.Idx := fun a => match a with
  | ⟨0, _⟩ => ⟨k.val, k.isLt⟩
  | ⟨1, _⟩ => ⟨(i 1).val, (i 1).isLt⟩

/-- The whole product: entry `(r, q)` is the sum over `k` of `x (r, k) * w (k, q)`. -/
def prod2 (x : S100000x16.Idx → Elt Ideal .f32) (w : S16x7.Idx → Elt Ideal .f32) : S100000x7.Idx → Elt Ideal .f32 :=
  fun i => ∑ k : Fin 16, x (row2 i k) * w (col2 i k)

/-! ## The host layers -/

section Host
variable {F : FTy → Type} [FloatOps F] [Cert.KernelIdeal.Facts]

/-- The edges' source nodes: row 0 of the edge list. -/
def srcs (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- The edges' destination nodes: row 1 of the edge list. -/
def dsts (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- One graph convolution's host part on a dense transform `t`: for every edge, row `src` of `t` (a negative
    source index counted from the end, as jnp indexing does) is added into row `dst` of a zero table; then the
    self-loop `t` and the bias row are added. -/
def conv1 (s d : (⟨S3200000, .i32⟩ : BufTy).Contents (Elt F)) (t : (⟨S100000x16, .f32⟩ : BufTy).Contents (Elt F)) (b : (⟨S16, .f32⟩ : BufTy).Contents (Elt F)) :
    (⟨S100000x16, .f32⟩ : BufTy).Contents (Elt F) :=
  addf
    (addf
      (Host.scatterAdd scatter_S100000x16_S3200000x1_S3200000x16_1_0_0_1
        (broadcastInDim S100000x16 ![] bcast_S_S100000x16 (constant S_ .f32 0x00000000#32))
        (broadcastInDim S3200000x1 ![0] bcast_S3200000_S3200000x1_0 d)
        (Host.gather gather_S100000x16_S3200000x1_S3200000x16_1_0_n_n_0_1_116 t
          (broadcastInDim S3200000x1 ![0] bcast_S3200000_S3200000x1_0
            (select
              (cmpi .slt s (broadcastInDim S3200000 ![] bcast_S_S3200000 (constantI S_ 32 0#32)))
              (addi s (broadcastInDim S3200000 ![] bcast_S_S3200000 (constantI S_ 32 100000#32)))
              s))))
      t)
    (broadcastInDim S100000x16 ![0, 1] bcast_S1x16_S100000x16_0_1 (broadcastInDim S1x16 ![1] bcast_S16_S1x16_1 b))

/-- The ReLU between the layers: the maximum with zero. -/
def relu (t : (⟨S100000x16, .f32⟩ : BufTy).Contents (Elt F)) : (⟨S100000x16, .f32⟩ : BufTy).Contents (Elt F) :=
  maximumf t (broadcastInDim S100000x16 ![] bcast_S_S100000x16 (constant S_ .f32 0x00000000#32))

/-- One graph convolution's host part on a dense transform `t`: for every edge, row `src` of `t` (a negative
    source index counted from the end, as jnp indexing does) is added into row `dst` of a zero table; then the
    self-loop `t` and the bias row are added. -/
def conv2 (s d : (⟨S3200000, .i32⟩ : BufTy).Contents (Elt F)) (t : (⟨S100000x7, .f32⟩ : BufTy).Contents (Elt F)) (b : (⟨S7, .f32⟩ : BufTy).Contents (Elt F)) :
    (⟨S100000x7, .f32⟩ : BufTy).Contents (Elt F) :=
  addf
    (addf
      (Host.scatterAdd scatter_S100000x7_S3200000x1_S3200000x7_1_0_0_1
        (broadcastInDim S100000x7 ![] bcast_S_S100000x7 (constant S_ .f32 0x00000000#32))
        (broadcastInDim S3200000x1 ![0] bcast_S3200000_S3200000x1_0 d)
        (Host.gather gather_S100000x7_S3200000x1_S3200000x7_1_0_n_n_0_1_17 t
          (broadcastInDim S3200000x1 ![0] bcast_S3200000_S3200000x1_0
            (select
              (cmpi .slt s (broadcastInDim S3200000 ![] bcast_S_S3200000 (constantI S_ 32 0#32)))
              (addi s (broadcastInDim S3200000 ![] bcast_S_S3200000 (constantI S_ 32 100000#32)))
              s))))
      t)
    (broadcastInDim S100000x7 ![0, 1] bcast_S1x7_S100000x7_0_1 (broadcastInDim S1x7 ![1] bcast_S7_S1x7_1 b))

end Host

/-- The whole network on extended reals, as one function of the six argument arrays. -/
def net [Cert.KernelIdeal.Facts] (x : (⟨S100000x1433, .f32⟩ : BufTy).Contents (Elt Ideal)) (e : (⟨S2x3200000, .i32⟩ : BufTy).Contents (Elt Ideal))
    (w1 : (⟨S1433x16, .f32⟩ : BufTy).Contents (Elt Ideal)) (b1 : (⟨S16, .f32⟩ : BufTy).Contents (Elt Ideal))
    (w2 : (⟨S16x7, .f32⟩ : BufTy).Contents (Elt Ideal)) (b2 : (⟨S7, .f32⟩ : BufTy).Contents (Elt Ideal)) :
    (⟨S100000x7, .f32⟩ : BufTy).Contents (Elt Ideal) :=
  conv2 (F := Ideal) (srcs e) (dsts e) (prod2 (relu (F := Ideal) (conv1 (F := Ideal) (srcs e) (dsts e) (prod1 x w1) b1)) w2) b2

end Cert.KernelIdeal.Layers

end
-- ==== Proof.RegionArrays.lean ====
/-
  Each Pallas region's result array as ONE function of the arrays the region finds.

  A region walks the row blocks of its left operand; at point `t` it multiplies block `t` by the resident weight
  matrix and writes the product back as block `t` of the result. Block `t` of the whole product `x @ w` depends
  only on rows `t * B … t * B + B - 1` of `x`, so what each point writes is the restriction of the whole product
  to its block, and the blocks cover the result: the array ends holding the whole product.
-/
import proofs.«100363_j29935922053209_2_alg».proof.Proof.Gen.KernelIdeal.Frame
import proofs.«100363_j29935922053209_2_alg».proof.Proof.BlockProduct
import proofs.«100363_j29935922053209_2_alg».proof.Proof.Layers
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.RegionArrays

open Cert.KernelIdeal Cert.KernelIdeal.Gen Cert.KernelIdeal.BlockProduct Cert.KernelIdeal.Layers

-- the TensorCore's buffer contents when a region is entered
variable (V : (c : Dev nD) → (b : Ref sig .tc) → Buf (Elt Ideal) ((c : Thread nD τ).loc b))

theorem hz : (![0, 0] : Fin 2 → Nat) = fun _ => 0 := funext fun a => by fin_cases a <;> rfl

/-! ## First layer: 100 blocks of 1000 rows of `x @ W1` -/

/-- One entry of a stored block is the whole product's entry `i`, once the block's row and the weights are
    known to be the whole operands' row and column at `i`. -/
theorem block_entry1 (A : S100000x1433.Idx → Elt Ideal .f32) (B : S1433x16.Idx → Elt Ideal .f32)
    (x : Vec Ideal S1000x1433 .f32) (w : Vec Ideal S1433x16 .f32) (j : S1000x16.Idx) (i : S100000x16.Idx)
    (hx : ∀ k, x (rowAt1 j k) = A (row1 i k)) (hw : ∀ k, w (colAt1 j k) = B (col1 i k)) :
    k0_pay1 (F := Ideal) x w j = prod1 A B i := by
  refine (pay1_apply x w j).trans ?_
  unfold prod1
  exact Finset.sum_congr rfl fun k _ => by rw [hx k, hw k]

/-- The printed index maps over the grid: the row blocks of the left operand and of the result move together,
    one block per point, and the weights stay. -/
theorem idx_facts1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed1 (c : Dev nD) (t : Fin cfg0.N) :
    (dat0 (F := Ideal) V c).flushed 2 t
      = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x16) hz]
  obtain ⟨e0, e1, e2, e3, e4, e5⟩ := idx_facts1 t
  funext j
  show k0_pay1 (F := Ideal) (iblk0 V c 0 t) (iblk0 V c 1 t) j = prod1 (V c main_arg0) (V c main_arg2) (((cfg0.win 2).blk t).view.emb j)
  refine block_entry1 (V c main_arg0) (V c main_arg2) (iblk0 V c 0 t) (iblk0 V c 1 t) j (((cfg0.win 2).blk t).view.emb j) (fun k => ?_) (fun k => ?_)
  · show V c main_arg0 (((cfg0.win 0).blk t).view.emb (rowAt1 j k)) = _
    refine congrArg (V c main_arg0) (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1433 + 1 * k.val = k.val; omega
  · show V c main_arg2 (((cfg0.win 1).blk t).view.emb (colAt1 j k)) = _
    refine congrArg (V c main_arg2) (funext fun a => Fin.ext ?_)
    match a with
    | ⟨0, _⟩ => show win0_1.index t (0 : Fin 2) * 1433 + 1 * k.val = k.val; omega
    | ⟨1, _⟩ => show win0_1.index t (1 : Fin 2) * 16 + 1 * (j 1).val = win0_2.index t (1 : Fin 2) * 16 + 1 * (j 1).val; omega

/-- An index of the result array is in point `t`'s block iff each coordinate is in the block's range. -/
theorem mem_blk1 (t : Fin cfg0.N) (i : S100000x16.Idx) :
    i ∈ ((cfg0.win 2).blk t).view.set ↔ ∀ a : Fin 2, win0_2.index t a * S1000x16.size a ≤ (i a).val ∧ (i a).val < win0_2.index t a * S1000x16.size a + S1000x16.size a := by
  show i ∈ ((View.whole main_v4).slice (win0_2.rect t)).set ↔ _
  rw [View.set_slice_whole, Rect.mem_set_unit]
  exact Iff.rfl

/-- Row `r` of the result lies in the block of point `r / 1000`: the blocks cover the array. -/
theorem cover1 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 100 := N_0
  refine ⟨⟨(i 0).val / 1000, by rw [hN]; omega⟩, flush0_2 _, ?_⟩
  rw [mem_blk1]
  obtain ⟨e0, e1, e2, e3, e4, e5⟩ := idx_facts1 ⟨(i 0).val / 1000, by rw [hN]; omega⟩
  intro a
  match a with
  | ⟨0, _⟩ =>
    show win0_2.index _ (0 : Fin 2) * 1000 ≤ (i 0).val ∧ (i 0).val < win0_2.index _ (0 : Fin 2) * 1000 + 1000
    rw [e4]; show (i 0).val / 1000 * 1000 ≤ (i 0).val ∧ (i 0).val < (i 0).val / 1000 * 1000 + 1000; omega
  | ⟨1, _⟩ =>
    show win0_2.index _ (1 : Fin 2) * 16 ≤ (i 1).val ∧ (i 1).val < win0_2.index _ (1 : Fin 2) * 16 + 16
    rw [e5]; omega

/-- The region's result array, after its last point, is the whole product of the arrays it found. -/
theorem array1 (c : Dev nD) :
    (dat0 (F := Ideal) V c).arrAt 2 cfg0.N = prod1 (V c main_arg0) (V c main_arg2) :=
  (dat0 (F := Ideal) V c).arrAt_eq_of_cover 2 _ (fun t _ => flushed1 V c t) cover1

/-! ## Second layer: 20 blocks of 5000 rows of `h @ W2` -/

/-- One entry of a stored block is the whole product's entry `i`, once the block's row and the weights are
    known to be the whole operands' row and column at `i`. -/
theorem block_entry2 (A : S100000x16.Idx → Elt Ideal .f32) (B : S16x7.Idx → Elt Ideal .f32)
    (x : Vec Ideal S5000x16 .f32) (w : Vec Ideal S16x7 .f32) (j : S5000x7.Idx) (i : S100000x7.Idx)
    (hx : ∀ k, x (rowAt2 j k) = A (row2 i k)) (hw : ∀ k, w (colAt2 j k) = B (col2 i k)) :
    k1_pay1 (F := Ideal) x w j = prod2 A B i := by
  refine (pay2_apply x w j).trans ?_
  unfold prod2
  exact Finset.sum_congr rfl fun k _ => by rw [hx k, hw k]

/-- The printed index maps over the grid: the row blocks of the left operand and of the result move together,
    one block per point, and the weights stay. -/
theorem idx_facts2 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region finds. -/
theorem flushed2 (c : Dev nD) (t : Fin cfg1.N) :
    (dat1 (F := Ideal) V c).flushed 2 t
      = ((cfg1.win 2).blk t).view.read (Elt Ideal) (prod2 (V c main_v19) (V c main_arg4)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x7) hz]
  obtain ⟨e0, e1, e2, e3, e4, e5⟩ := idx_facts2 t
  funext j
  show k1_pay1 (F := Ideal) (iblk1 V c 0 t) (iblk1 V c 1 t) j = prod2 (V c main_v19) (V c main_arg4) (((cfg1.win 2).blk t).view.emb j)
  refine block_entry2 (V c main_v19) (V c main_arg4) (iblk1 V c 0 t) (iblk1 V c 1 t) j (((cfg1.win 2).blk t).view.emb j) (fun k => ?_) (fun k => ?_)
  · show V c main_v19 (((cfg1.win 0).blk t).view.emb (rowAt2 j k)) = _
    refine congrArg (V c main_v19) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  · show V c main_arg4 (((cfg1.win 1).blk t).view.emb (colAt2 j k)) = _
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 7 + 1 * (j 1).val = win1_2.index t (1 : Fin 2) * 7 + 1 * (j 1).val; omega

/-- An index of the result array is in point `t`'s block iff each coordinate is in the block's range. -/
theorem mem_blk2 (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v20).slice (win1_2.rect t)).set ↔ _
  rw [View.set_slice_whole, Rect.mem_set_unit]
  exact Iff.rfl

/-- Row `r` of the result lies in the block of point `r / 5000`: the blocks cover the array. -/
theorem cover2 (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 20 := N_1
  refine ⟨⟨(i 0).val / 5000, by rw [hN]; omega⟩, flush1_2 _, ?_⟩
  rw [mem_blk2]
  obtain ⟨e0, e1, e2, e3, e4, e5⟩ := idx_facts2 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 7 ≤ (i 1).val ∧ (i 1).val < win1_2.index _ (1 : Fin 2) * 7 + 7
    rw [e5]; omega

/-- The region's result array, after its last point, is the whole product of the arrays it found. -/
theorem array2 (c : Dev nD) :
    (dat1 (F := Ideal) V c).arrAt 2 cfg1.N = prod2 (V c main_v19) (V c main_arg4) :=
  (dat1 (F := Ideal) V c).arrAt_eq_of_cover 2 _ (fun t _ => flushed2 V c t) cover2

end Cert.KernelIdeal.RegionArrays

end
-- ==== Proof.HostStretches.lean ====
/-
  The three stretches of host operations between and around the two Pallas regions, each read once, from ANY
  buffer contents `Wv` it is entered with:
    * the first four lines cut the source and destination rows out of the edge list;
    * the lines between the regions are the first convolution's aggregation, self-loop and bias on whatever the
      first region's result buffer holds, then the ReLU;
    * the lines after the second region are the second convolution's aggregation, self-loop and bias on whatever
      the second region's result buffer holds.
  A buffer a stretch does not write is left as it was.
-/
import proofs.«100363_j29935922053209_2_alg».proof.Proof.Gen.KernelIdeal.Launch
import proofs.«100363_j29935922053209_2_alg».proof.Proof.Layers
import Idealize.ShloMosaic.Lib.StableHlo.Run

set_option maxRecDepth 16384

noncomputable section

namespace Cert.KernelIdeal.HostStretches

open Cert.KernelIdeal Cert.KernelIdeal.Gen Cert.KernelIdeal.Layers
open Idealize.ShloMosaic Idealize.ShloMosaic.TcCoe Idealize.SL.Sem Idealize.ShloMosaic.StableHlo

variable {F : FTy → Type} [FloatOps F] (Wv : Valuation τ sig (Elt F))

/-! ## Before the first region -/

theorem src_of : StableHlo.after hostOps0 Wv (Proc.devRef .tc main_v1) = srcs (F := F) (Wv (Proc.devRef .tc main_arg1)) := by
  after_results_simp <;> rfl
theorem dst_of : StableHlo.after hostOps0 Wv (Proc.devRef .tc main_v3) = dsts (F := F) (Wv (Proc.devRef .tc main_arg1)) := by
  after_results_simp <;> rfl
theorem pre_arg0 : StableHlo.after hostOps0 Wv (Proc.devRef .tc main_arg0) = Wv (Proc.devRef .tc main_arg0) := by
  after_results_simp <;> rfl
theorem pre_arg2 : StableHlo.after hostOps0 Wv (Proc.devRef .tc main_arg2) = Wv (Proc.devRef .tc main_arg2) := by
  after_results_simp <;> rfl
theorem pre_arg3 : StableHlo.after hostOps0 Wv (Proc.devRef .tc main_arg3) = Wv (Proc.devRef .tc main_arg3) := by
  after_results_simp <;> rfl
theorem pre_arg4 : StableHlo.after hostOps0 Wv (Proc.devRef .tc main_arg4) = Wv (Proc.devRef .tc main_arg4) := by
  after_results_simp <;> rfl
theorem pre_arg5 : StableHlo.after hostOps0 Wv (Proc.devRef .tc main_arg5) = Wv (Proc.devRef .tc main_arg5) := by
  after_results_simp <;> rfl

/-! ## Between the regions -/

theorem hidden_of : StableHlo.after hostOps1_1 (StableHlo.after hostOps1 Wv) (Proc.devRef .tc main_v19)
    = relu (F := F) (conv1 (F := F) (Wv (Proc.devRef .tc main_v1)) (Wv (Proc.devRef .tc main_v3)) (Wv (Proc.devRef .tc main_v4)) (Wv (Proc.devRef .tc main_arg3))) := by
  after_results_simp <;> rfl
theorem mid_v1 : StableHlo.after hostOps1_1 (StableHlo.after hostOps1 Wv) (Proc.devRef .tc main_v1) = Wv (Proc.devRef .tc main_v1) := by
  after_results_simp <;> rfl
theorem mid_v3 : StableHlo.after hostOps1_1 (StableHlo.after hostOps1 Wv) (Proc.devRef .tc main_v3) = Wv (Proc.devRef .tc main_v3) := by
  after_results_simp <;> rfl
theorem mid_arg4 : StableHlo.after hostOps1_1 (StableHlo.after hostOps1 Wv) (Proc.devRef .tc main_arg4) = Wv (Proc.devRef .tc main_arg4) := by
  after_results_simp <;> rfl
theorem mid_arg5 : StableHlo.after hostOps1_1 (StableHlo.after hostOps1 Wv) (Proc.devRef .tc main_arg5) = Wv (Proc.devRef .tc main_arg5) := by
  after_results_simp <;> rfl

/-! ## After the second region -/

theorem out_of : StableHlo.after hostOps2 Wv (Proc.devRef .tc main_v34)
    = conv2 (F := F) (Wv (Proc.devRef .tc main_v1)) (Wv (Proc.devRef .tc main_v3)) (Wv (Proc.devRef .tc main_v20)) (Wv (Proc.devRef .tc main_arg5)) := by
  after_results_simp <;> rfl

end Cert.KernelIdeal.HostStretches

end
-- ==== Proof.HostChain.lean ====
/-
  What the program's result buffer holds after the last segment, as the network of the launch contents.

  Walking the six segments back from the result: the last host stretch is the second convolution's aggregation of
  the second region's array; that array is the product of the ReLU'd first layer with `W2`; the ReLU'd first layer
  is the middle host stretches applied to the first region's array; that array is `x @ W1`; and the two index
  vectors are the rows of `edge_index` that the first four host lines cut out. A buffer no segment writes is
  carried through unchanged.
-/
import proofs.«100363_j29935922053209_2_alg».proof.Proof.Gen.KernelIdeal.Frame
import proofs.«100363_j29935922053209_2_alg».proof.Proof.RegionArrays
import proofs.«100363_j29935922053209_2_alg».proof.Proof.Layers
import proofs.«100363_j29935922053209_2_alg».proof.Proof.HostStretches

set_option maxRecDepth 16384

noncomputable section

namespace Cert.KernelIdeal.HostChain

open Cert.KernelIdeal Cert.KernelIdeal.Gen Cert.KernelIdeal.Layers Cert.KernelIdeal.RegionArrays Cert.KernelIdeal.HostStretches
open Idealize.ShloMosaic Idealize.ShloMosaic.TcCoe Idealize.SL.Sem

/-! ## Equal operands give equal layers -/

section Congr
variable {F : FTy → Type} [FloatOps F]

theorem hidden_congr {s s' d d' : (⟨S3200000, .i32⟩ : BufTy).Contents (Elt F)} {t t' : (⟨S100000x16, .f32⟩ : BufTy).Contents (Elt F)}
    {b b' : (⟨S16, .f32⟩ : BufTy).Contents (Elt F)} (hs : s = s') (hd : d = d') (ht : t = t') (hb : b = b') :
    relu (F := F) (conv1 (F := F) s d t b) = relu (F := F) (conv1 (F := F) s' d' t' b') := by
  subst hs hd ht hb; rfl

theorem out_congr {s s' d d' : (⟨S3200000, .i32⟩ : BufTy).Contents (Elt F)} {t t' : (⟨S100000x7, .f32⟩ : BufTy).Contents (Elt F)}
    {b b' : (⟨S7, .f32⟩ : BufTy).Contents (Elt F)} (hs : s = s') (hd : d = d') (ht : t = t') (hb : b = b') :
    conv2 (F := F) s d t b = conv2 (F := F) s' d' t' b' := by
  subst hs hd ht hb; rfl

theorem prod1_congr {x x' : S100000x1433.Idx → Elt Ideal .f32} {w w' : S1433x16.Idx → Elt Ideal .f32} (hx : x = x') (hw : w = w') :
    prod1 x w = prod1 x' w' := by subst hx hw; rfl
theorem prod2_congr {x x' : S100000x16.Idx → Elt Ideal .f32} {w w' : S16x7.Idx → Elt Ideal .f32} (hx : x = x') (hw : w = w') :
    prod2 x w = prod2 x' w' := by subst hx hw; rfl

end Congr

variable (m : (ℓ : Loc nD τ sig) → Buf (Elt Ideal) ℓ) (ρ : Dev nD → PrngReg)

/-! ## Before the first region: the two rows of the edge list, the arguments as launched -/

theorem W1_v1 (c : Dev nD) : W1 m ρ c (Proc.devRef .tc main_v1) = srcs (F := Ideal) (m ((c.tc : Thread nD τ).loc main_arg1)) := src_of (W0 m ρ c)
theorem W1_v3 (c : Dev nD) : W1 m ρ c (Proc.devRef .tc main_v3) = dsts (F := Ideal) (m ((c.tc : Thread nD τ).loc main_arg1)) := dst_of (W0 m ρ c)
theorem W1_arg0 (c : Dev nD) : W1 m ρ c (Proc.devRef .tc main_arg0) = m ((c.tc : Thread nD τ).loc main_arg0) := pre_arg0 (W0 m ρ c)
theorem W1_arg2 (c : Dev nD) : W1 m ρ c (Proc.devRef .tc main_arg2) = m ((c.tc : Thread nD τ).loc main_arg2) := pre_arg2 (W0 m ρ c)
theorem W1_arg3 (c : Dev nD) : W1 m ρ c (Proc.devRef .tc main_arg3) = m ((c.tc : Thread nD τ).loc main_arg3) := pre_arg3 (W0 m ρ c)
theorem W1_arg4 (c : Dev nD) : W1 m ρ c (Proc.devRef .tc main_arg4) = m ((c.tc : Thread nD τ).loc main_arg4) := pre_arg4 (W0 m ρ c)
theorem W1_arg5 (c : Dev nD) : W1 m ρ c (Proc.devRef .tc main_arg5) = m ((c.tc : Thread nD τ).loc main_arg5) := pre_arg5 (W0 m ρ c)

/-! ## After the first region: its result is `x @ W1`, everything else as it was -/

theorem W2_v4 (c : Dev nD) : W2 m ρ c (Proc.devRef .tc main_v4) = prod1 (m ((c.tc : Thread nD τ).loc main_arg0)) (m ((c.tc : Thread nD τ).loc main_arg2)) :=
  (W2_arr m ρ c 2).trans ((array1 (V1 m ρ) c).trans (prod1_congr (W1_arg0 m ρ c) (W1_arg2 m ρ c)))
theorem W2_v1 (c : Dev nD) : W2 m ρ c (Proc.devRef .tc main_v1) = srcs (F := Ideal) (m ((c.tc : Thread nD τ).loc main_arg1)) :=
  (W2_of_ne m ρ c main_v1 (by decide)).trans (W1_v1 m ρ c)
theorem W2_v3 (c : Dev nD) : W2 m ρ c (Proc.devRef .tc main_v3) = dsts (F := Ideal) (m ((c.tc : Thread nD τ).loc main_arg1)) :=
  (W2_of_ne m ρ c main_v3 (by decide)).trans (W1_v3 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)

/-! ## Before the second region: the first layer's aggregation and ReLU -/

/-- The hidden layer `h`. -/
abbrev hidden (c : Dev nD) : (⟨S100000x16, .f32⟩ : BufTy).Contents (Elt Ideal) :=
  relu (F := Ideal) (conv1 (F := Ideal) (srcs (m ((c.tc : Thread nD τ).loc main_arg1))) (dsts (m ((c.tc : Thread nD τ).loc main_arg1)))
    (prod1 (m ((c.tc : Thread nD τ).loc main_arg0)) (m ((c.tc : Thread nD τ).loc main_arg2))) (m ((c.tc : Thread nD τ).loc main_arg3)))

theorem W4_v19 (c : Dev nD) : W4 m ρ c (Proc.devRef .tc main_v19) = hidden m c :=
  (hidden_of (W2 m ρ c)).trans (hidden_congr (W2_v1 m ρ c) (W2_v3 m ρ c) (W2_v4 m ρ c) (W2_arg3 m ρ c))
theorem W4_v1 (c : Dev nD) : W4 m ρ c (Proc.devRef .tc main_v1) = srcs (F := Ideal) (m ((c.tc : Thread nD τ).loc main_arg1)) :=
  (mid_v1 (W2 m ρ c)).trans (W2_v1 m ρ c)
theorem W4_v3 (c : Dev nD) : W4 m ρ c (Proc.devRef .tc main_v3) = dsts (F := Ideal) (m ((c.tc : Thread nD τ).loc main_arg1)) :=
  (mid_v3 (W2 m ρ c)).trans (W2_v3 m ρ c)
theorem W4_arg4 (c : Dev nD) : W4 m ρ c (Proc.devRef .tc main_arg4) = m ((c.tc : Thread nD τ).loc main_arg4) :=
  (mid_arg4 (W2 m ρ c)).trans (W2_arg4 m ρ c)
theorem W4_arg5 (c : Dev nD) : W4 m ρ c (Proc.devRef .tc main_arg5) = m ((c.tc : Thread nD τ).loc main_arg5) :=
  (mid_arg5 (W2 m ρ c)).trans (W2_arg5 m ρ c)

/-! ## After the second region: its result is `h @ W2` -/

theorem W5_v20 (c : Dev nD) : W5 m ρ c (Proc.devRef .tc main_v20) = prod2 (hidden m c) (m ((c.tc : Thread nD τ).loc main_arg4)) :=
  (W5_arr m ρ c 2).trans ((array2 (V4 m ρ) c).trans (prod2_congr (W4_v19 m ρ c) (W4_arg4 m ρ c)))
theorem W5_v1 (c : Dev nD) : W5 m ρ c (Proc.devRef .tc main_v1) = srcs (F := Ideal) (m ((c.tc : Thread nD τ).loc main_arg1)) :=
  (W5_of_ne m ρ c main_v1 (by decide)).trans (W4_v1 m ρ c)
theorem W5_v3 (c : Dev nD) : W5 m ρ c (Proc.devRef .tc main_v3) = dsts (F := Ideal) (m ((c.tc : Thread nD τ).loc main_arg1)) :=
  (W5_of_ne m ρ c main_v3 (by decide)).trans (W4_v3 m ρ c)
theorem W5_arg5 (c : Dev nD) : W5 m ρ c (Proc.devRef .tc main_arg5) = m ((c.tc : Thread nD τ).loc main_arg5) :=
  (W5_of_ne m ρ c main_arg5 (by decide)).trans (W4_arg5 m ρ c)

/-! ## The result -/

/-- After the last host stretch the result buffer holds the network of the launch contents. -/
theorem result (c : Dev nD) : W6 m ρ c (Proc.devRef .tc main_v34)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (out_of (W5 m ρ c)).trans (out_congr (W5_v1 m ρ c) (W5_v3 m ρ c) (W5_v20 m ρ c) (W5_arg5 m ρ c))

end Cert.KernelIdeal.HostChain

end
-- ==== Proof.RefNet.lean ====
/-
  The reference's result is the same network.

  The reference computes, stage by stage, exactly the host operations of the two layers, with each dense transform
  a `dot_general`. On extended reals a `dot_general` with one contracted axis is the plain sum over that axis, which
  is how the network's dense products are written; every other stage is the same host operation on both sides.
-/
import proofs.«100363_j29935922053209_2_alg».proof.Proof.Gen.ReferenceIdeal.Read
import proofs.«100363_j29935922053209_2_alg».proof.Proof.Gen.KernelIdeal
import proofs.«100363_j29935922053209_2_alg».proof.Proof.Layers

set_option maxRecDepth 16384

noncomputable section

namespace Cert.ReferenceIdeal.RefNet

open Cert.ReferenceIdeal Cert.ReferenceIdeal.Gen Cert.ReferenceIdeal.Read Idealize.ShloMosaic
open Cert.KernelIdeal.Layers

variable (x0 : (⟨S100000x1433, .f32⟩ : BufTy).Contents (Elt Ideal)) (x1 : (⟨S2x3200000, .i32⟩ : BufTy).Contents (Elt Ideal)) (x2 : (⟨S1433x16, .f32⟩ : BufTy).Contents (Elt Ideal))
  (x3 : (⟨S16, .f32⟩ : BufTy).Contents (Elt Ideal)) (x4 : (⟨S16x7, .f32⟩ : BufTy).Contents (Elt Ideal)) (x5 : (⟨S7, .f32⟩ : BufTy).Contents (Elt Ideal))

/-- The first dense transform: `x @ W1` as a sum over the 1433 features. -/
theorem dense1 : val_main_v4 (F := Ideal) x0 x2 = prod1 x0 x2 := by
  funext i
  rw [val_main_v4_apply]
  rfl

/-- The hidden layer: the first convolution's host part and the ReLU, on the first dense transform. -/
theorem hidden_eq : val_main_v19 (F := Ideal) x0 x1 x2 x3
    = relu (F := Ideal) (conv1 (F := Ideal) (srcs x1) (dsts x1) (val_main_v4 (F := Ideal) x0 x2) x3) := by
  simp only [val_main_v19, val_main_call0_v0, val_main_call0_cst, val_main_v18, val_main_v17, val_main_v16, val_main_v15,
    val_main_v14, val_main_v13, val_main_v12, val_main_cst, val_main_v11, val_main_v10, val_main_v9, val_main_v8, val_main_v7,
    val_main_c_0, val_main_v6, val_main_v5, val_main_c, val_main_v3, val_main_v2, val_main_v1, val_main_v0,
    relu, conv1, srcs, dsts]
  try rfl

/-- The second dense transform: `h @ W2` as a sum over the 16 hidden features. -/
theorem dense2 : val_main_v20 (F := Ideal) x0 x1 x2 x3 x4 = prod2 (val_main_v19 (F := Ideal) x0 x1 x2 x3) x4 := by
  funext i
  rw [val_main_v20_apply]
  rfl

/-- The output: the second convolution's host part on the second dense transform. -/
theorem out_eq : val_main_v34 (F := Ideal) x0 x1 x2 x3 x4 x5
    = conv2 (F := Ideal) (srcs x1) (dsts x1) (val_main_v20 (F := Ideal) x0 x1 x2 x3 x4) x5 := by
  simp only [val_main_v34, val_main_v33, val_main_v32, val_main_v31, val_main_v30, val_main_v29, val_main_v28, val_main_cst_3,
    val_main_v27, val_main_v26, val_main_v25, val_main_v24, val_main_v23, val_main_c_2, val_main_v22, val_main_v21, val_main_c_1,
    val_main_v3, val_main_v2, val_main_v1, val_main_v0, conv2, srcs, dsts]
  try rfl

/-- The reference's result is the network of its arguments. -/
theorem net_eq : val_main_v34 (F := Ideal) x0 x1 x2 x3 x4 x5 = net x0 x1 x2 x3 x4 x5 := by
  rw [out_eq, dense2, hidden_eq, dense1]
  rfl

end Cert.ReferenceIdeal.RefNet

end
-- ==== Proof.lean ====
/-
  A two-layer graph convolution: the Pallas kernel against its jnp reference, on extended reals.

  Both programs compute
    t1 = x @ W1,   h = relu (Σ over edges of t1[src] into dst + t1 + b1),
    t2 = h @ W2, out =       Σ over edges of t2[src] into dst + t2 + b2.
  The reference takes each dense transform as one `dot_general`. The kernel takes it as a Pallas region that walks
  the row blocks of the left operand (1000 rows at a time in the first layer, 5000 in the second), narrows the
  block and the resident weights to bf16 — the identity on extended reals — and multiplies them into a zero
  accumulator. A block of rows of a product depends only on those rows of the left operand, so each region's
  result array is the whole product (Proof/BlockProduct.lean: a stored block at an index; Proof/RegionArrays.lean:
  the blocks tile the array). Every other operation — cutting the two rows out of the edge list, the gather, the
  scatter-add, the self-loop, the bias, the ReLU — is the same host operation in both programs, applied in the
  same order to equal operands (Proof/Layers.lean names them once; Proof/HostChain.lean reads the kernel's
  segments back to them, Proof/RefNet.lean the reference's stages). The only law used is that a finite sum of
  extended reals does not depend on how its index set is written, so the precondition is never opened.

  The idealization rewrote nothing, so `preserves` is trivial; the two kernels' frames are the generated ones,
  and the reference's frame is its generated run with the result forgotten.
-/
import proofs.«100363_j29935922053209_2_alg».proof.Defs
import proofs.«100363_j29935922053209_2_alg».proof.Proof.Gen.Kernel
import proofs.«100363_j29935922053209_2_alg».proof.Proof.Gen.Kernel.Skeleton
import proofs.«100363_j29935922053209_2_alg».proof.Proof.Gen.Kernel.Launch
import proofs.«100363_j29935922053209_2_alg».proof.Proof.Gen.Kernel.Points
import proofs.«100363_j29935922053209_2_alg».proof.Proof.Gen.Kernel.Frame
import proofs.«100363_j29935922053209_2_alg».proof.Proof.Gen.KernelIdeal
import proofs.«100363_j29935922053209_2_alg».proof.Proof.Gen.KernelIdeal.Skeleton
import proofs.«100363_j29935922053209_2_alg».proof.Proof.Gen.KernelIdeal.Launch
import proofs.«100363_j29935922053209_2_alg».proof.Proof.Gen.KernelIdeal.Points
import proofs.«100363_j29935922053209_2_alg».proof.Proof.Gen.KernelIdeal.Frame
import proofs.«100363_j29935922053209_2_alg».proof.Proof.Gen.ReferenceIdeal
import proofs.«100363_j29935922053209_2_alg».proof.Proof.Gen.ReferenceIdeal.Run
import proofs.«100363_j29935922053209_2_alg».proof.Proof.Gen.ReferenceIdeal.Read
import proofs.«100363_j29935922053209_2_alg».proof.Proof.Gen.Pre_finite_inputs
import proofs.«100363_j29935922053209_2_alg».proof.Proof.KernelRun
import proofs.«100363_j29935922053209_2_alg».proof.Proof.HostChain
import proofs.«100363_j29935922053209_2_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the (agreeing) argument arrays in their result buffer. -/
theorem algebraic : Cert.algebraic_KernelIdeal_ReferenceIdeal := by
  intro m ρ m' ρ' _ hagree
  refine ⟨fun c => Cert.KernelIdeal.Layers.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostChain.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.RefNet.net_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
